-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S32x2048x2048 : Shape := ⟨3, ![32, 2048, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) (main_arg3 : IVec S32x2048x2048 1) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S2048x1 : Shape := ⟨2, ![2048, 1]⟩

abbrev nBuf : Space → Nat
  | .hbm => 7
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x2048, .i32⟩
  | .hbm, ⟨5, _⟩ => ⟨S32x2048x64, .f32⟩
  | .hbm, ⟨6, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x64_S512 : S512x64.Reduces [1] S512
  shapeCasts_S512_S512x1 : S512.ShapeCasts S512x1
  broadcasts_S512x1_S512x64 : S512x1.Broadcasts S512x64
  reduces_S2048x64_S2048 : S2048x64.Reduces [1] S2048
  shapeCasts_S2048_S2048x1 : S2048.ShapeCasts S2048x1
  broadcasts_S2048x1_S2048x64 : S2048x1.Broadcasts S2048x64
  bitsLt_bf16_f32 : FTy.bits .bf16 < FTy.bits .f32
  reduces_S512x2048_S512 : S512x2048.Reduces [1] S512
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x2048x2048.size a
  hwx0_3 : ∀ i : grid0.Coords, EltTy.bits .i32 = 32 ∨ (Rect.block (s := S32x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x2048x2048.size a
  hwx0_5 : ∀ i : grid0.Coords, EltTy.bits .f32 = 32 ∨ (Rect.block (s := S32x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .i1⟩
  | .hbm, ⟨4, _⟩ => ⟨S32x2048x64, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S32x2048x1, .f32⟩
  | .hbm, ⟨9, _⟩ => ⟨S_, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S32x2048x64, .f32⟩
  | .hbm, ⟨14, _⟩ => ⟨S32x2048x64, .f32⟩
  | .hbm, ⟨15, _⟩ => ⟨S32x2048x64, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S32x2048x64, .f32⟩
  | .hbm, ⟨25, _⟩ => ⟨S32x2048x64, .f32⟩
  | .hbm, ⟨26, _⟩ => ⟨S32x2048x2048, .f32⟩
  | .hbm, ⟨27, _⟩ => ⟨S_, .f32⟩
  | .hbm, ⟨28, _⟩ => ⟨S32x2048x2048, .f32⟩
  | .hbm, ⟨29, _⟩ => ⟨S32x2048x2048, .f32⟩
  | .hbm, ⟨30, _⟩ => ⟨S_, .f32⟩
  | .hbm, ⟨31, _⟩ => ⟨S_, .f32⟩
  | .hbm, ⟨32, _⟩ => ⟨S32x2048x2048, .f32⟩
  | .hbm, ⟨33, _⟩ => ⟨S32x2048x2048, .f32⟩
  | .hbm, ⟨34, _⟩ => ⟨S_, .f32⟩
  | .hbm, ⟨35, _⟩ => ⟨S32x2048, .f32⟩
  | .hbm, ⟨36, _⟩ => ⟨S32x2048x1, .f32⟩
  | .hbm, ⟨37, _⟩ => ⟨S_, .f32⟩
  | .hbm, ⟨38, _⟩ => ⟨S_, .f32⟩
  | .hbm, ⟨39, _⟩ => ⟨S32x2048x1, .f32⟩
  | .hbm, ⟨40, _⟩ => ⟨S32x2048x1, .f32⟩
  | .hbm, ⟨41, _⟩ => ⟨S32x2048x2048, .f32⟩
  | .hbm, ⟨42, _⟩ => ⟨S32x2048x2048, .f32⟩
  | .hbm, ⟨43, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call2_v0 : Ref sig .tc := ⟨.hbm, 15, rfl⟩
abbrev main_call2_cst : Ref sig .tc := ⟨.hbm, 16, rfl⟩
abbrev main_call2_v1 : Ref sig .tc := ⟨.hbm, 17, rfl⟩
abbrev main_call2_v2 : Ref sig .tc := ⟨.hbm, 18, rfl⟩
abbrev main_v4 : Ref sig .tc := ⟨.hbm, 19, rfl⟩
abbrev main_cst_0 : Ref sig .tc := ⟨.hbm, 20, rfl⟩
abbrev main_call3_v0 : Ref sig .tc := ⟨.hbm, 21, rfl⟩
abbrev main_call3_v1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_call4_v0 : Ref sig .tc := ⟨.hbm, 31, rfl⟩
abbrev main_call4_v1 : Ref sig .tc := ⟨.hbm, 32, rfl⟩
abbrev main_v11 : Ref sig .tc := ⟨.hbm, 33, rfl⟩
abbrev main_cst_3 : Ref sig .tc := ⟨.hbm, 34, rfl⟩
abbrev main_v12 : Ref sig .tc := ⟨.hbm, 35, rfl⟩
abbrev main_v13 : Ref sig .tc := ⟨.hbm, 36, rfl⟩
abbrev main_cst_4 : Ref sig .tc := ⟨.hbm, 37, rfl⟩
abbrev main_call5_v0 : Ref sig .tc := ⟨.hbm, 38, rfl⟩
abbrev main_call5_v1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  reducesTo_S32x2048x64_S32x2048_d2 : S32x2048x64.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x64_0_1_2 : S32x2048x1.BroadcastsInDim S32x2048x64 (![0, 1, 2] : Fin 3 → Fin S32x2048x64.rank)
  bcast_S_S32x2048x2048 : S_.BroadcastsInDim S32x2048x2048 (![] : Fin 0 → Fin S32x2048x2048.rank)
  reducesTo_S32x2048x2048_S32x2048_d2 : S32x2048x2048.ReducesTo [2] S32x2048
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Spec.lean ====
/-
  Cosine-similarity attention with sum normalisation, as functions on the extended reals.

  For one batch entry, a query row x and a key row y (64 features each) score
    cos(x, y) + 1 = Σ_d (x_d / |x|) · (y_d / |y|) + 1,      |x| = max(√(Σ_d x_d²), ε),
  a masked pair scores 0, a row of 2048 scores is divided by max(its sum, ε), and the output row is the
  attention row times the value matrix. Everything is stated once for rows (functions of Fin 64 / Fin 2048)
  and then for the [32, 2048, ·] arrays by reading their rows.
-/
import Idealize.ShloMosaic.Lib.ValueIdx
import Idealize.ShloMosaic.PureOps.Ideal.Laws

noncomputable section

namespace Cert.CosAttn

open Idealize.ShloMosaic Idealize.ShloMosaic.ValueIdx

/-- The clamp ε (the f32 nearest to 1e-12) and the shift 1, as the extended reals their f32 words denote. -/
def eps : EReal := Ideal.ofBits .f32 0x2B8CBCCC#32
def one : EReal := Ideal.ofBits .f32 0x3F800000#32

/-- The Euclidean length of a row of 64 features, clamped below by ε. -/
def len (x : Fin 64 → EReal) : EReal := max (Ideal.sqrt (∑ d : Fin 64, x d * x d)) eps

/-- The cosine of two rows (each divided by its clamped length), shifted by 1. -/
def cosp1 (x y : Fin 64 → EReal) : EReal :=
  (∑ d : Fin 64, Ideal.div (x d) (len x) * Ideal.div (y d) (len y)) + one

/-- A pair's score: 0 where the mask bit is set, the shifted cosine elsewhere. -/
def score (mk : BitVec 1) (x y : Fin 64 → EReal) : EReal := Scalar.select mk 0 (cosp1 x y)

/-- The normaliser of a row of 2048 scores: their sum, clamped below by ε. -/
def den (s : Fin 2048 → EReal) : EReal := max (∑ c : Fin 2048, s c) eps

abbrev Rows := (⟨3, ![32, 2048, 64]⟩ : Shape).Idx → EReal
abbrev Mask := (⟨3, ![32, 2048, 2048]⟩ : Shape).Idx → BitVec 1

/-- Row `r` of batch `b` of a [32, 2048, 64] array. -/
abbrev row (x : Rows) (b : Fin 32) (r : Fin 2048) : Fin 64 → EReal := fun d => x (ix3 b r d)

/-- The score of query row `r` against key row `c` in batch `b`. -/
def S (q k : Rows) (mk : Mask) (b : Fin 32) (r c : Fin 2048) : EReal :=
  score (mk (ix3 b r c)) (row q b r) (row k b c)

/-- The attention weight: the score over the row's normaliser. -/
def A (q k : Rows) (mk : Mask) (b : Fin 32) (r c : Fin 2048) : EReal :=
  Ideal.div (S q k mk b r c) (den fun c' => S q k mk b r c')

/-- The output entry: the attention row against column `d` of the batch's value matrix. -/
def O (q k v : Rows) (mk : Mask) (b : Fin 32) (r : Fin 2048) (d : Fin 64) : EReal :=
  ∑ c : Fin 2048, A q k mk b r c * v (ix3 b c d)

/-- The attention array [32, 2048, 2048], index by index. -/
def attn (q k : Rows) (mk : Mask) : (⟨3, ![32, 2048, 2048]⟩ : Shape).Idx → EReal :=
  fun i => A q k mk (i 0) (i 1) (i 2)

/-- The output array [32, 2048, 64], index by index. -/
def out (q k v : Rows) (mk : Mask) : (⟨3, ![32, 2048, 64]⟩ : Shape).Idx → EReal :=
  fun i => O q k v mk (i 0) (i 1) (i 2)

end Cert.CosAttn

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.Payload.lean ====
/-
  What the kernel body computes for one block of 512 query rows, read at an index.

  The body sees the block's queries [1, 512, 64], the batch's keys and values [1, 2048, 64] and the block's
  mask words [1, 512, 2048]. Entry (p, c) of its score matrix is the masked shifted cosine of query row p and
  key row c; the attention block divides each row by its clamped sum; the output block is the attention block
  times the values. The two matrix products are plain sums over the contracted axis.
-/
import proofs.«158349_j76656576299359_1_alg».proof.Proof.Gen.KernelIdeal.Skeleton
import proofs.«158349_j76656576299359_1_alg».proof.Proof.Spec
import proofs.«158349_j76656576299359_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.CosAttn.Blk

open Cert.KernelIdeal Cert.KernelIdeal.Gen Idealize.ShloMosaic Idealize.ShloMosaic.ValueIdx Cert.Lib.Keepdims Cert.CosAttn

/-! ## Rows divided by their clamped length -/

/-- The rows of an [a, 64] array, each divided by its clamped Euclidean length (the sum of squares along the row
    kept as a column, its root clamped below by ε, spread back over the row). -/
def unitRows {a : ℕ} (x : FVec Ideal ⟨2, ![a, 64]⟩ .f32)
    (hr : (⟨2, ![a, 64]⟩ : Shape).Reduces [1] ⟨1, ![a]⟩) (hc : (⟨1, ![a]⟩ : Shape).ShapeCasts ⟨2, ![a, 1]⟩)
    (hb : (⟨2, ![a, 1]⟩ : Shape).Broadcasts ⟨2, ![a, 64]⟩) : FVec Ideal ⟨2, ![a, 64]⟩ .f32 :=
  divf x (broadcastTo ⟨2, ![a, 64]⟩ (maximumf (sqrt (shapeCast ⟨2, ![a, 1]⟩
    (multiReduction .add [1] ⟨1, ![a]⟩ (mulf x x) 0x00000000#32 hr (.inl rfl) rfl) hc))
    (broadcast ⟨2, ![a, 1]⟩ (Scalar.ofBits .f32 0x2B8CBCCC#32))) hb)

/-- Entry (p, d) of the normalised rows: the entry over its row's clamped length. -/
theorem unitRows_apply {a : ℕ} (x : FVec Ideal ⟨2, ![a, 64]⟩ .f32)
    (hr : (⟨2, ![a, 64]⟩ : Shape).Reduces [1] ⟨1, ![a]⟩) (hc : (⟨1, ![a]⟩ : Shape).ShapeCasts ⟨2, ![a, 1]⟩)
    (hb : (⟨2, ![a, 1]⟩ : Shape).Broadcasts ⟨2, ![a, 64]⟩) (p : Fin a) (d : Fin 64) :
    unitRows x hr hc hb (ix2 p d) = Ideal.div (x (ix2 p d)) (len fun d' => x (ix2 p d')) := by
  unfold unitRows
  rw [divf_apply, broadcastTo_a1_ab_apply, maximumf_apply]
  refine congrArg (fun z => Ideal.div (x (ix2 p d)) (max (Ideal.sqrt z) eps)) ?_
  exact (shapeCast_a_a1_apply _ hc p 0).trans (laneSum_apply (mulf x x) 0x00000000#32 hr (.inl rfl) rfl p)

/-! ## The two matrix products as sums -/

/-! The operand coordinates of the two products: a kept axis reads the output coordinate, the contracted axis the
    summation index. -/

theorem qk_lhs0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

theorem av_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem av_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem av_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
theorem av_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q

/-- Queries against keys, both [·, 64], contracted over the 64 features: entry (p, c) is Σ_k L(p, k) · R(c, k). -/
theorem scores_matmul (L : FVec Ideal S512x64 .bf16) (R : FVec Ideal S2048x64 .bf16) (p : Fin 512) (c : Fin 2048) :
    matmul dot_S512x64_S2048x64_S512x2048_1_1_0_0_n_n none L R (constant S512x2048 .f32 0x00000000#32) (ix2 p c)
      = ∑ k : Fin 64, L (ix2 p k) * R (ix2 c k) := by
  show FloatOps.matmul dot_S512x64_S2048x64_S512x2048_1_1_0_0_n_n none L R (constant S512x2048 .f32 0x00000000#32) (ix2 p c) = _
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 p c) ((contrEquiv1 dot_S512x64_S2048x64_S512x2048_1_1_0_0_n_n 64 rfl rfl).symm k) = ix2 p k := funext fun a => Fin.ext (by
    match a with
    | ⟨0, _⟩ => exact qk_lhs0 _ _
    | ⟨1, _⟩ => exact (qk_lhs1 _ _).trans hk)
  have er : dot_S512x64_S2048x64_S512x2048_1_1_0_0_n_n.rhsIdx (ix2 p c) ((contrEquiv1 dot_S512x64_S2048x64_S512x2048_1_1_0_0_n_n 64 rfl rfl).symm k) = ix2 c k := funext fun a => Fin.ext (by
    match a with
    | ⟨0, _⟩ => exact qk_rhs0 _ _
    | ⟨1, _⟩ => exact (qk_rhs1 _ _).trans hk)
  rw [el, er]

/-- Attention [512, 2048] against values [2048, 64], contracted over the 2048 keys: entry (p, d) is Σ_k L(p, k) · R(k, d). -/
theorem out_matmul (L : FVec Ideal S512x2048 .bf16) (R : FVec Ideal S2048x64 .bf16) (p : Fin 512) (d : Fin 64) :
    matmul dot_S512x2048_S2048x64_S512x64_1_0_0_1_n_n none L R (constant S512x64 .f32 0x00000000#32) (ix2 p d)
      = ∑ k : Fin 2048, L (ix2 p k) * R (ix2 k d) := by
  show FloatOps.matmul dot_S512x2048_S2048x64_S512x64_1_0_0_1_n_n none L R (constant S512x64 .f32 0x00000000#32) (ix2 p d) = _
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p d) ((contrEquiv1 dot_S512x2048_S2048x64_S512x64_1_0_0_1_n_n 2048 rfl rfl).symm k) = ix2 p k := funext fun a => Fin.ext (by
    match a with
    | ⟨0, _⟩ => exact av_lhs0 _ _
    | ⟨1, _⟩ => exact (av_lhs1 _ _).trans hk)
  have er : dot_S512x2048_S2048x64_S512x64_1_0_0_1_n_n.rhsIdx (ix2 p d) ((contrEquiv1 dot_S512x2048_S2048x64_S512x64_1_0_0_1_n_n 2048 rfl rfl).symm k) = ix2 k d := funext fun a => Fin.ext (by
    match a with
    | ⟨0, _⟩ => exact (av_rhs0 _ _).trans hk
    | ⟨1, _⟩ => exact av_rhs1 _ _)
  rw [el, er]

/-! ## The body's values at an index -/

theorem cmpi_apply {s : Shape} {w : ℕ} (pr : CmpIPredicate) (x y : IVec s w) (i : s.Idx) :
    cmpi pr x y i = IntOp.cmpi pr (x i) (y i) := rfl

/-- The block's score matrix as the body builds it: rows of the query block and of the key array normalised, their
    product shifted by 1, zero where the mask word is not 0. -/
theorem pay5_tree (P0 : Vec Ideal S1x512x64 .f32) (P1 : Vec Ideal S1x2048x64 .f32) (P2 : Vec Ideal S1x512x2048 .i32) :
    k0_pay5 (F := Ideal) P0 P1 P2
      = select (cmpi .ne (shapeCast S512x2048 P2 shapeCasts_S1x512x2048_S512x2048) (constantI S512x2048 32 0#32))
          (broadcast S512x2048 (Scalar.ofBits .f32 0x00000000#32))
          (addf (matmul dot_S512x64_S2048x64_S512x2048_1_1_0_0_n_n none
              (truncf .bf16 (unitRows (shapeCast S512x64 P0 shapeCasts_S1x512x64_S512x64) reduces_S512x64_S512 shapeCasts_S512_S512x1 broadcasts_S512x1_S512x64) bitsLt_bf16_f32)
              (truncf .bf16 (unitRows (shapeCast S2048x64 P1 shapeCasts_S1x2048x64_S2048x64) reduces_S2048x64_S2048 shapeCasts_S2048_S2048x1 broadcasts_S2048x1_S2048x64) bitsLt_bf16_f32)
              (constant S512x2048 .f32 0x00000000#32))
            (broadcast S512x2048 (Scalar.ofBits .f32 0x3F800000#32))) := rfl

/-- The score of query row `p` of the block against key row `c`, from the block's loads. -/
def blkScore (P0 : Vec Ideal S1x512x64 .f32) (P1 : Vec Ideal S1x2048x64 .f32) (P2 : Vec Ideal S1x512x2048 .i32)
    (p : Fin 512) (c : Fin 2048) : EReal :=
  score (IntOp.cmpi .ne (P2 (ix3 (0 : Fin 1) p c)) 0#32) (fun d => P0 (ix3 (0 : Fin 1) p d)) (fun d => P1 (ix3 (0 : Fin 1) c d))

theorem pay5_apply (P0 : Vec Ideal S1x512x64 .f32) (P1 : Vec Ideal S1x2048x64 .f32) (P2 : Vec Ideal S1x512x2048 .i32)
    (p : Fin 512) (c : Fin 2048) : k0_pay5 (F := Ideal) P0 P1 P2 (ix2 p c) = blkScore P0 P1 P2 p c := by
  rw [pay5_tree, select_apply, addf_apply, scores_matmul, cmpi_apply]
  simp only [truncf_apply, unitRows_apply, shapeCast_1ab_ab_apply, broadcast_apply, constantI_apply, Ideal.ofBits_def,
    Ideal.ofBits_zero_f32]
  rfl

/-- The attention block before the leading unit axis is put back: score over the row's clamped sum. -/
theorem pay1_apply (v31 : FVec Ideal S512x2048 .f32) (v35 : FVec Ideal S512x1 .f32) (p : Fin 512) (c : Fin 2048) :
    k0_pay1 (F := Ideal) v31 v35 (ix2 p c) = Ideal.div (v31 (ix2 p c)) (v35 (ix2 p (0 : Fin 1))) := by
  show divf v31 (broadcastTo S512x2048 v35 broadcasts_S512x1_S512x2048) (ix2 p c) = _
  rw [divf_apply, broadcastTo_a1_ab_apply]

/-- The clamped row sums of the score matrix. -/
theorem pay6_apply (P0 : Vec Ideal S1x512x64 .f32) (P1 : Vec Ideal S1x2048x64 .f32) (P2 : Vec Ideal S1x512x2048 .i32)
    (p : Fin 512) (u : Fin 1) : k0_pay6 (F := Ideal) P0 P1 P2 (ix2 p u) = den fun c' => blkScore P0 P1 P2 p c' := by
  show maximumf (shapeCast S512x1 (multiReduction .add [1] S512 (k0_pay5 P0 P1 P2) 0x00000000#32 reduces_S512x2048_S512 (.inl rfl) rfl) shapeCasts_S512_S512x1)
    (broadcast S512x1 (Scalar.ofBits .f32 0x2B8CBCCC#32)) (ix2 p u) = _
  rw [maximumf_apply]
  refine congrArg (fun z => max z eps) ?_
  refine ((shapeCast_a_a1_apply _ shapeCasts_S512_S512x1 p u).trans
    (laneSum_apply (k0_pay5 P0 P1 P2) 0x00000000#32 reduces_S512x2048_S512 (.inl rfl) rfl p)).trans ?_
  exact Finset.sum_congr rfl fun k _ => pay5_apply P0 P1 P2 p k

/-- The stored attention block at (0, p, c). -/
theorem attnBlk_apply (P0 : Vec Ideal S1x512x64 .f32) (P1 : Vec Ideal S1x2048x64 .f32) (P2 : Vec Ideal S1x512x2048 .i32)
    (u : Fin 1) (p : Fin 512) (c : Fin 2048) :
    k0_pay2 (F := Ideal) (k0_pay5 P0 P1 P2) (k0_pay6 P0 P1 P2) (ix3 u p c)
      = Ideal.div (blkScore P0 P1 P2 p c) (den fun c' => blkScore P0 P1 P2 p c') := by
  show shapeCast S1x512x2048 (k0_pay1 (k0_pay5 P0 P1 P2) (k0_pay6 P0 P1 P2)) shapeCasts_S512x2048_S1x512x2048 (ix3 u p c) = _
  rw [shapeCast_ab_1ab_apply, pay1_apply, pay5_apply, pay6_apply]

/-- The stored output block at (0, p, d): the attention row against column `d` of the value array. -/
theorem outBlk_apply (P0 : Vec Ideal S1x512x64 .f32) (P1 : Vec Ideal S1x2048x64 .f32) (P2 : Vec Ideal S1x512x2048 .i32)
    (P3 : Vec Ideal S1x2048x64 .f32) (u : Fin 1) (p : Fin 512) (d : Fin 64) :
    k0_pay3 (F := Ideal) (k0_pay4 P3) (k0_pay5 P0 P1 P2) (k0_pay6 P0 P1 P2) (ix3 u p d)
      = ∑ k : Fin 2048, Ideal.div (blkScore P0 P1 P2 p k) (den fun c' => blkScore P0 P1 P2 p c') * P3 (ix3 (0 : Fin 1) k d) := by
  show shapeCast S1x512x64 (matmul dot_S512x2048_S2048x64_S512x64_1_0_0_1_n_n none
      (truncf .bf16 (k0_pay1 (k0_pay5 P0 P1 P2) (k0_pay6 P0 P1 P2)) bitsLt_bf16_f32)
      (truncf .bf16 (shapeCast S2048x64 P3 shapeCasts_S1x2048x64_S2048x64) bitsLt_bf16_f32)
      (constant S512x64 .f32 0x00000000#32)) shapeCasts_S512x64_S1x512x64 (ix3 u p d) = _
  rw [shapeCast_ab_1ab_apply, out_matmul]
  refine Finset.sum_congr rfl fun k _ => ?_
  rw [truncf_apply, truncf_apply, shapeCast_1ab_ab_apply, pay1_apply, pay5_apply, pay6_apply]

end Cert.CosAttn.Blk

end
-- ==== Proof.Blocks.lean ====
/-
  From what one grid point writes to the whole output arrays.

  The grid has 32 × 4 points; point (b, g) handles query rows 512·g … 512·g + 511 of batch b. It reads block (b, g)
  of the queries and of the mask, all of batch b's keys and values, and writes block (b, g) of the output and of the
  attention array. Read through these blocks, what the body leaves is the specification's arrays restricted to the
  point's rows; the 128 blocks tile both output arrays, so the arrays end holding the specification everywhere.
-/
import proofs.«158349_j76656576299359_1_alg».proof.Proof.Gen.KernelIdeal.Value
import proofs.«158349_j76656576299359_1_alg».proof.Proof.Payload
import Idealize.ShloMosaic.Lib.StableHlo.Run
import Idealize.ShloMosaic.Lib.Tactic

noncomputable section

namespace Cert.CosAttn.Grid

open Cert.KernelIdeal Cert.KernelIdeal.Gen Cert.KernelIdeal.Value Idealize.ShloMosaic Idealize.ShloMosaic.TcCoe Idealize.SL.Sem
open Idealize.ShloMosaic.ValueIdx Cert.CosAttn Cert.CosAttn.Blk
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The argument arrays -/

abbrev Q (c : Dev nD) : Rows := m ((c : Thread nD τ).loc main_arg0)
abbrev K (c : Dev nD) : Rows := m ((c : Thread nD τ).loc main_arg1)
abbrev W (c : Dev nD) : Rows := m ((c : Thread nD τ).loc main_arg2)
abbrev M (c : Dev nD) : Mask := m ((c : Thread nD τ).loc main_arg3)

/-- The mask as the region finds it: each bit widened to a 32-bit word. -/
theorem V_mask (c : Dev nD) : (V m c main_v0 : S32x2048x2048.Idx → BitVec 32) = extui 32 (M m c) natLt_1_32 := by
  dsimp only [V, hostOps0]
  after_results

/-- A widened mask bit is not the zero word exactly when the bit is set. -/
theorem ne_zero_setWidth (x : BitVec 1) : IntOp.cmpi .ne (x.setWidth 32) 0#32 = x := by
  rcases BitVec.eq_zero_or_eq_one x with h | h <;> subst h <;> decide

/-! ## What the body leaves, as payloads of the loaded blocks -/

theorem out5_eq (x0 : Vec Ideal S1x512x64 .f32) (x1 x2 : Vec Ideal S1x2048x64 .f32) (x3 : Vec Ideal S1x512x2048 .i32) :
    out0_5 (F := Ideal) x0 x1 x2 x3 = k0_pay2 (k0_pay5 x0 x1 x3) (k0_pay6 x0 x1 x3) := by
  unfold out0_5
  rw [View.canon_unit_zero hz]
  simp only [View.ld_unit_zero (S := S1x512x64) hz, View.ld_unit_zero (S := S1x2048x64) hz, View.ld_unit_zero (S := S1x512x2048) hz]

theorem out4_eq (x0 : Vec Ideal S1x512x64 .f32) (x1 x2 : Vec Ideal S1x2048x64 .f32) (x3 : Vec Ideal S1x512x2048 .i32) :
    out0_4 (F := Ideal) x0 x1 x2 x3 = k0_pay3 (k0_pay4 x2) (k0_pay5 x0 x1 x3) (k0_pay6 x0 x1 x3) := by
  unfold out0_4
  rw [View.canon_unit_zero hz]
  simp only [View.ld_unit_zero (S := S1x512x64) hz, View.ld_unit_zero (S := S1x2048x64) hz, View.ld_unit_zero (S := S1x512x2048) hz]

/-! ## The index maps -/

/-- The printed index maps, decided over the 128 points: queries, mask, output and attention move together over
    (batch, row block); keys and values follow the batch only. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (0 : Fin 3) < 32 ∧ win0_5.index t (1 : Fin 3) < 4 ∧ win0_5.index t (2 : Fin 3) = 0 :=
  (by decide +kernel : ∀ t : Fin grid0.N, _)

/-- Every (batch, row block) pair is some point's. -/
theorem idx_onto : ∀ (q0 : Fin 32) (q1 : Fin 4), ∃ t : Fin cfg0.N, win0_5.index t = ![q0.val, q1.val, 0] :=
  (by decide +kernel : ∀ (q0 : Fin 32) (q1 : Fin 4), ∃ t : Fin grid0.N, win0_5.index t = ![q0.val, q1.val, 0])

/-! ## The input blocks read at an index

    At point `t` with block index (b, g, 0), the query block's row `p` is row 512·g + p of batch b, the mask
    block's likewise, and the key / value blocks are all of batch b. -/

theorem iblk0_apply (c : Dev nD) (t : Fin cfg0.N) (p : Fin 512) (d : Fin 64) (b : Fin 32) (r : Fin 2048)
    (hb : b.val = win0_5.index t (0 : Fin 3)) (hr : r.val = win0_5.index t (1 : Fin 3) * 512 + p.val) :
    (iblk m c 0 t : Vec Ideal S1x512x64 .f32) (ix3 (0 : Fin 1) p d) = Q m c (ix3 b r d) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * p.val = r.val; omega
  | ⟨2, _⟩ => show win0_0.index t (2 : Fin 3) * 64 + 1 * d.val = d.val; omega

theorem iblk1_apply (c : Dev nD) (t : Fin cfg0.N) (k : Fin 2048) (d : Fin 64) (b : Fin 32)
    (hb : b.val = win0_5.index t (0 : Fin 3)) :
    (iblk m c 1 t : Vec Ideal S1x2048x64 .f32) (ix3 (0 : Fin 1) k d) = K m c (ix3 b k d) := by
  obtain ⟨-, -, -, e0, e1, e2, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = b.val; omega
  | ⟨1, _⟩ => show win0_1.index t (1 : Fin 3) * 2048 + 1 * k.val = k.val; omega
  | ⟨2, _⟩ => show win0_1.index t (2 : Fin 3) * 64 + 1 * d.val = d.val; omega

theorem iblk2_apply (c : Dev nD) (t : Fin cfg0.N) (k : Fin 2048) (d : Fin 64) (b : Fin 32)
    (hb : b.val = win0_5.index t (0 : Fin 3)) :
    (iblk m c 2 t : Vec Ideal S1x2048x64 .f32) (ix3 (0 : Fin 1) k d) = W m c (ix3 b k d) := by
  obtain ⟨-, -, -, -, -, -, e0, e1, e2, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 3) * 1 + 1 * 0 = b.val; omega
  | ⟨1, _⟩ => show win0_2.index t (1 : Fin 3) * 2048 + 1 * k.val = k.val; omega
  | ⟨2, _⟩ => show win0_2.index t (2 : Fin 3) * 64 + 1 * d.val = d.val; omega

theorem iblk3_apply (c : Dev nD) (t : Fin cfg0.N) (p : Fin 512) (k : Fin 2048) (b : Fin 32) (r : Fin 2048)
    (hb : b.val = win0_5.index t (0 : Fin 3)) (hr : r.val = win0_5.index t (1 : Fin 3) * 512 + p.val) :
    IntOp.cmpi .ne ((iblk m c 3 t : Vec Ideal S1x512x2048 .i32) (ix3 (0 : Fin 1) p k)) 0#32 = M m c (ix3 b r k) := by
  obtain ⟨-, -, -, -, -, -, -, -, -, e0, e1, e2, -⟩ := idx_facts t
  have e : (iblk m c 3 t : Vec Ideal S1x512x2048 .i32) (ix3 (0 : Fin 1) p k) = (M m c (ix3 b r k)).setWidth 32 := by
    unfold iblk
    rw [View.read_apply]
    show V m c main_v0 _ = _
    rw [V_mask]
    refine congrArg (fun i => (M m c i).setWidth 32) (funext fun a => Fin.ext ?_)
    match a with
    | ⟨0, _⟩ => show win0_3.index t (0 : Fin 3) * 1 + 1 * 0 = b.val; omega
    | ⟨1, _⟩ => show win0_3.index t (1 : Fin 3) * 512 + 1 * p.val = r.val; omega
    | ⟨2, _⟩ => show win0_3.index t (2 : Fin 3) * 2048 + 1 * k.val = k.val; omega
  rw [e, ne_zero_setWidth]

/-- So the block's score matrix is the specification's scores of the point's rows. -/
theorem blkScore_eq (c : Dev nD) (t : Fin cfg0.N) (p : Fin 512) (k : Fin 2048) (b : Fin 32) (r : Fin 2048)
    (hb : b.val = win0_5.index t (0 : Fin 3)) (hr : r.val = win0_5.index t (1 : Fin 3) * 512 + p.val) :
    blkScore (iblk m c 0 t) (iblk m c 1 t) (iblk m c 3 t) p k = S (Q m c) (K m c) (M m c) b r k := by
  unfold blkScore S
  rw [iblk3_apply m c t p k b r hb hr]
  refine congrArg₂ (score _) (funext fun d => ?_) (funext fun d => ?_)
  · exact iblk0_apply m c t p d b r hb hr
  · exact iblk1_apply m c t k d b hb

end Cert.CosAttn.Grid

end
-- ==== Proof.Final.lean ====
/-
  The two output arrays after the run.

  Each grid point writes back, through its block, the specification's arrays restricted to the block; the blocks
  cover both arrays; so after the run the output array is `out` and the attention array is `attn` of the argument
  arrays, and the arguments are as launched.
-/
import proofs.«158349_j76656576299359_1_alg».proof.Proof.Blocks

noncomputable section

namespace Cert.CosAttn.Grid

open Cert.KernelIdeal Cert.KernelIdeal.Gen Cert.KernelIdeal.Value Idealize.ShloMosaic Idealize.ShloMosaic.TcCoe Idealize.SL.Sem
open Idealize.ShloMosaic.ValueIdx Cert.CosAttn Cert.CosAttn.Blk
open Idealize.ShloMosaic.Pipeline (Dat)

variable (m : (ℓ : Loc nD τ sig) → Buf (Elt Ideal) ℓ) (ρ : Dev nD → PrngReg)

/-- Two functions of a [1, a, b] block index agree when they agree at every (0, p, k). -/
theorem blk3_ext {α : Type} {n1 n2 : ℕ} (f g : (⟨3, ![1, n1, n2]⟩ : Shape).Idx → α)
    (h : ∀ (p : Fin n1) (k : Fin n2), f (ix3 (0 : Fin 1) p k) = g (ix3 (0 : Fin 1) p k)) : f = g := by
  funext j
  obtain ⟨u, p, k, rfl⟩ : ∃ (u : Fin 1) (p : Fin n1) (k : Fin n2), j = ix3 u p k := ⟨j 0, j 1, j 2, eq_ix3 j⟩
  obtain rfl : u = 0 := Subsingleton.elim _ _
  exact h p k

/-- The attention weight the block's loads give is the specification's, for the point's rows. -/
theorem blkAttn_eq (c : Dev nD) (t : Fin cfg0.N) (p : Fin 512) (k : Fin 2048) (b : Fin 32) (r : Fin 2048)
    (hb : b.val = win0_5.index t (0 : Fin 3)) (hr : r.val = win0_5.index t (1 : Fin 3) * 512 + p.val) :
    Ideal.div (blkScore (iblk m c 0 t) (iblk m c 1 t) (iblk m c 3 t) p k)
        (den fun c' => blkScore (iblk m c 0 t) (iblk m c 1 t) (iblk m c 3 t) p c')
      = A (Q m c) (K m c) (M m c) b r k := by
  unfold A
  rw [blkScore_eq m c t p k b r hb hr]
  exact congrArg (fun s => Ideal.div _ (den s)) (funext fun c' => blkScore_eq m c t p c' b r hb hr)

/-- What point `t` writes back to the attention array is block `t` of the specification's attention array. -/
theorem flushed5_eq (c : Dev nD) (t : Fin cfg0.N) :
    (dats m 0 c).flushed 5 t = ((cfg0.win 5).blk t).view.read (Elt Ideal) (attn (Q m c) (K m c) (M m c)) := by
  obtain ⟨-, -, -, -, -, -, -, -, -, -, -, -, -, -, -, l0, l1, l2⟩ := idx_facts t
  rw [flushed5, out5_eq]
  refine blk3_ext (n1 := 512) (n2 := 2048) _ _ fun p k => ?_
  have hr : win0_5.index t (1 : Fin 3) * 512 + p.val < 2048 := by have := p.isLt; omega
  have hi : ((cfg0.win 5).blk t).view.emb (ix3 (0 : Fin 1) p k)
      = ix3 (⟨win0_5.index t (0 : Fin 3), l0⟩ : Fin 32) (⟨win0_5.index t (1 : Fin 3) * 512 + p.val, hr⟩ : Fin 2048) k :=
    funext fun a => Fin.ext (by
      match a with
      | ⟨0, _⟩ => show win0_5.index t (0 : Fin 3) * 1 + 1 * 0 = win0_5.index t (0 : Fin 3); omega
      | ⟨1, _⟩ => show win0_5.index t (1 : Fin 3) * 512 + 1 * p.val = win0_5.index t (1 : Fin 3) * 512 + p.val; omega
      | ⟨2, _⟩ => show win0_5.index t (2 : Fin 3) * 2048 + 1 * k.val = k.val; omega)
  show k0_pay2 (k0_pay5 (iblk m c 0 t) (iblk m c 1 t) (iblk m c 3 t)) (k0_pay6 (iblk m c 0 t) (iblk m c 1 t) (iblk m c 3 t)) (ix3 (0 : Fin 1) p k)
    = attn (Q m c) (K m c) (M m c) (((cfg0.win 5).blk t).view.emb (ix3 (0 : Fin 1) p k))
  rw [hi]
  exact (attnBlk_apply (iblk m c 0 t) (iblk m c 1 t) (iblk m c 3 t) 0 p k).trans (blkAttn_eq m c t p k _ _ rfl rfl)

/-- What point `t` writes back to the output array is block `t` of the specification's output array. -/
theorem flushed4_eq (c : Dev nD) (t : Fin cfg0.N) :
    (dats m 0 c).flushed 4 t = ((cfg0.win 4).blk t).view.read (Elt Ideal) (out (Q m c) (K m c) (W m c) (M m c)) := by
  obtain ⟨-, -, -, -, -, -, -, -, -, -, -, -, e0, e1, e2, l0, l1, l2⟩ := idx_facts t
  rw [flushed4, out4_eq]
  refine blk3_ext (n1 := 512) (n2 := 64) _ _ fun p d => ?_
  have hr : win0_5.index t (1 : Fin 3) * 512 + p.val < 2048 := by have := p.isLt; omega
  have hi : ((cfg0.win 4).blk t).view.emb (ix3 (0 : Fin 1) p d)
      = ix3 (⟨win0_5.index t (0 : Fin 3), l0⟩ : Fin 32) (⟨win0_5.index t (1 : Fin 3) * 512 + p.val, hr⟩ : Fin 2048) d :=
    funext fun a => Fin.ext (by
      match a with
      | ⟨0, _⟩ => show win0_4.index t (0 : Fin 3) * 1 + 1 * 0 = win0_5.index t (0 : Fin 3); omega
      | ⟨1, _⟩ => show win0_4.index t (1 : Fin 3) * 512 + 1 * p.val = win0_5.index t (1 : Fin 3) * 512 + p.val; omega
      | ⟨2, _⟩ => show win0_4.index t (2 : Fin 3) * 64 + 1 * d.val = d.val; omega)
  show k0_pay3 (k0_pay4 (iblk m c 2 t)) (k0_pay5 (iblk m c 0 t) (iblk m c 1 t) (iblk m c 3 t)) (k0_pay6 (iblk m c 0 t) (iblk m c 1 t) (iblk m c 3 t)) (ix3 (0 : Fin 1) p d)
    = out (Q m c) (K m c) (W m c) (M m c) (((cfg0.win 4).blk t).view.emb (ix3 (0 : Fin 1) p d))
  rw [hi]
  refine (outBlk_apply (iblk m c 0 t) (iblk m c 1 t) (iblk m c 3 t) (iblk m c 2 t) 0 p d).trans ?_
  show _ = O (Q m c) (K m c) (W m c) (M m c) _ _ d
  unfold O
  refine Finset.sum_congr rfl fun k _ => ?_
  rw [blkAttn_eq m c t p k ⟨win0_5.index t (0 : Fin 3), l0⟩ ⟨win0_5.index t (1 : Fin 3) * 512 + p.val, hr⟩ rfl rfl,
    iblk2_apply m c t k d ⟨win0_5.index t (0 : Fin 3), l0⟩ rfl]

/-! ## The blocks cover the arrays -/

theorem mem_blk5 (t : Fin cfg0.N) (i : S32x2048x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v1_1).slice (win0_5.rect t)).set ↔ _
  rw [View.set_slice_whole, Rect.mem_set_unit]
  exact Iff.rfl

theorem mem_blk4 (t : Fin cfg0.N) (i : S32x2048x64.Idx) :
    i ∈ ((cfg0.win 4).blk t).view.set ↔ ∀ a : Fin 3, win0_4.index t a * S1x512x64.size a ≤ (i a).val ∧ (i a).val < win0_4.index t a * S1x512x64.size a + S1x512x64.size a := by
  show i ∈ ((View.whole main_v1_0).slice (win0_4.rect t)).set ↔ _
  rw [View.set_slice_whole, Rect.mem_set_unit]
  exact Iff.rfl

/-- Row `r` of batch `b` lies in the block of the point with block index (b, r / 512). -/
theorem cover5 (i : S32x2048x2048.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  obtain ⟨-, -, -, -, -, -, -, -, -, -, -, -, e0, e1, e2, -⟩ := idx_facts t
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-! ## The arrays after the run -/

theorem final5 (c : Dev nD) : (dats m 0 c).arrAt 5 cfg0.N = attn (Q m c) (K m c) (M m c) :=
  (dats m 0 c).arrAt_eq_of_cover 5 (attn (Q m c) (K m c) (M m c)) (fun t _ => flushed5_eq m c t) cover5

theorem final4 (c : Dev nD) : (dats m 0 c).arrAt 4 cfg0.N = out (Q m c) (K m c) (W m c) (M m c) :=
  (dats m 0 c).arrAt_eq_of_cover 4 (out (Q m c) (K m c) (W m c) (M m c)) (fun t _ => flushed4_eq m c t) cover4

/-- The kernel's run, read: the output array ends at `out`, the attention array at `attn` of the argument arrays,
    which end as launched. -/
theorem run : θ_run defs (onTc (τ := τ) (main (F := Ideal))) ⟨m, fun _ => 0, ρ⟩ fun r => ∀ c : Dev nD,
      r.2.mem ((c : Thread nD τ).loc main_v1_0) = out (Q m c) (K m c) (W m c) (M m c)
      ∧ r.2.mem ((c : Thread nD τ).loc main_v1_1) = attn (Q m c) (K m c) (M m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.CosAttn.Grid

end
-- ==== Proof.RefSpec.lean ====
/-
  The reference computes the specification: its stages, read at an index, are the row functions of the
  specification applied to rows of the argument arrays.
-/
import proofs.«158349_j76656576299359_1_alg».proof.Proof.Gen.ReferenceIdeal.Read
import proofs.«158349_j76656576299359_1_alg».proof.Proof.Spec

noncomputable section

namespace Cert.CosAttn.Ref

open Cert.ReferenceIdeal Cert.ReferenceIdeal.Gen Cert.ReferenceIdeal.Read Idealize.ShloMosaic Idealize.ShloMosaic.ValueIdx Cert.CosAttn

/-- The clamped norm column of the queries: at `(b, r, 0)` the clamped length of query row `r` of batch `b`. -/
theorem len_q (x0 : Rows) (b : Fin 32) (r : Fin 2048) (u : Fin 1) :
    val_main_v1 (F := Ideal) x0 (ix3 b r u) = len (row x0 b r) := by
  have e : ∀ k, idx_main_call0_v1 (idx_main_call0_v2 (ix3 b r u)) k = ix3 b r k := fun k => funext fun a => by
    match a with | ⟨0, _⟩ => rfl | ⟨1, _⟩ => rfl | ⟨2, _⟩ => rfl
  rw [val_main_v1_apply, val_main_call1_v1_apply, val_main_call1_v0_apply, val_main_cst_apply, val_main_v0_apply,
    val_main_call0_v2_apply, val_main_call0_v1_apply, val_main_call0_cst_apply]
  simp only [val_main_call0_v0_apply, e, Ideal.maximumf_def, Ideal.hostUnary_sqrt_def, Ideal.ofBits_def, Ideal.mulf_def,
    Ideal.ofBits_zero_f32, zero_add]
  unfold len eps
  exact max_comm _ _

/-- The same for the keys. -/
theorem len_k (x1 : Rows) (b : Fin 32) (r : Fin 2048) (u : Fin 1) :
    val_main_v5 (F := Ideal) x1 (ix3 b r u) = len (row x1 b r) := by
  have e : ∀ k, idx_main_call2_v1 (idx_main_call2_v2 (ix3 b r u)) k = ix3 b r k := fun k => funext fun a => by
    match a with | ⟨0, _⟩ => rfl | ⟨1, _⟩ => rfl | ⟨2, _⟩ => rfl
  rw [val_main_v5_apply, val_main_call3_v1_apply, val_main_call3_v0_apply, val_main_cst_0_apply, val_main_v4_apply,
    val_main_call2_v2_apply, val_main_call2_v1_apply, val_main_call2_cst_apply]
  simp only [val_main_call2_v0_apply, e, Ideal.maximumf_def, Ideal.hostUnary_sqrt_def, Ideal.ofBits_def, Ideal.mulf_def,
    Ideal.ofBits_zero_f32, zero_add]
  unfold len eps
  exact max_comm _ _

/-- A normalised query entry: the entry over its row's clamped length. -/
theorem unit_q (x0 : Rows) (b : Fin 32) (r : Fin 2048) (d : Fin 64) :
    val_main_v3 (F := Ideal) x0 (ix3 b r d) = Ideal.div (x0 (ix3 b r d)) (len (row x0 b r)) := by
  have e : idx_main_v2 (ix3 b r d) = ix3 b r (0 : Fin 1) := funext fun a => by
    match a with | ⟨0, _⟩ => rfl | ⟨1, _⟩ => rfl | ⟨2, _⟩ => rfl
  rw [val_main_v3_apply, val_main_v2_apply, e, len_q]
  rfl

/-- A normalised key entry. -/
theorem unit_k (x1 : Rows) (b : Fin 32) (r : Fin 2048) (d : Fin 64) :
    val_main_v7 (F := Ideal) x1 (ix3 b r d) = Ideal.div (x1 (ix3 b r d)) (len (row x1 b r)) := by
  have e : idx_main_v6 (ix3 b r d) = ix3 b r (0 : Fin 1) := funext fun a => by
    match a with | ⟨0, _⟩ => rfl | ⟨1, _⟩ => rfl | ⟨2, _⟩ => rfl
  rw [val_main_v7_apply, val_main_v6_apply, e, len_k]
  rfl

/-- The masked, shifted cosine of query row `r` and key row `c` of batch `b`. -/
theorem score_eq (x0 x1 : Rows) (x3 : Mask) (b : Fin 32) (r c : Fin 2048) :
    val_main_v11 (F := Ideal) x0 x1 x3 (ix3 b r c) = S x0 x1 x3 b r c := by
  have el : ∀ k, lidx_main_v8 (ix3 b r c) k = ix3 b r k := fun k => funext fun a => by
    match a with | ⟨0, _⟩ => rfl | ⟨1, _⟩ => rfl | ⟨2, _⟩ => rfl
  have er : ∀ k, ridx_main_v8 (ix3 b r c) k = ix3 b c k := fun k => funext fun a => by
    match a with | ⟨0, _⟩ => rfl | ⟨1, _⟩ => rfl | ⟨2, _⟩ => rfl
  rw [val_main_v11_apply, val_main_call4_v1_apply, val_main_call4_v0_apply, val_main_cst_2_apply, val_main_v10_apply,
    val_main_v9_apply, val_main_cst_1_apply, val_main_v8_apply]
  simp only [el, er, unit_q, unit_k, Ideal.addf_def, Ideal.ofBits_def, Ideal.ofBits_zero_f32]
  rfl

/-- The attention array of the reference is the specification's. -/
theorem attn_eq (x0 x1 : Rows) (x3 : Mask) : val_main_v16 (F := Ideal) x0 x1 x3 = attn x0 x1 x3 := by
  funext i
  obtain ⟨b, r, c, rfl⟩ : ∃ (b : Fin 32) (r c : Fin 2048), i = ix3 b r c := ⟨i 0, i 1, i 2, eq_ix3 i⟩
  have e : ∀ k, idx_main_v12 (idx_main_v13 (idx_main_v15 (ix3 b r c))) k = ix3 b r k := fun k => funext fun a => by
    match a with | ⟨0, _⟩ => rfl | ⟨1, _⟩ => rfl | ⟨2, _⟩ => rfl
  rw [val_main_v16_apply, val_main_v15_apply, val_main_v14_apply, val_main_call5_v1_apply, val_main_call5_v0_apply,
    val_main_cst_4_apply, val_main_v13_apply, val_main_v12_apply, val_main_cst_3_apply]
  simp only [e, score_eq, Ideal.hostDivf_def, Ideal.maximumf_def, Ideal.ofBits_def, Ideal.ofBits_zero_f32, zero_add]
  show _ = A x0 x1 x3 b r c
  unfold A den eps
  rw [max_comm]

/-- The output array of the reference is the specification's. -/
theorem out_eq (x0 x1 x2 : Rows) (x3 : Mask) : val_main_v17 (F := Ideal) x0 x1 x2 x3 = out x0 x1 x2 x3 := by
  funext i
  obtain ⟨b, r, d, rfl⟩ : ∃ (b : Fin 32) (r : Fin 2048) (d : Fin 64), i = ix3 b r d := ⟨i 0, i 1, i 2, eq_ix3 i⟩
  have el : ∀ k, lidx_main_v17 (ix3 b r d) k = ix3 b r k := fun k => funext fun a => by
    match a with | ⟨0, _⟩ => rfl | ⟨1, _⟩ => rfl | ⟨2, _⟩ => rfl
  have er : ∀ k, ridx_main_v17 (ix3 b r d) k = ix3 b k d := fun k => funext fun a => by
    match a with | ⟨0, _⟩ => rfl | ⟨1, _⟩ => rfl | ⟨2, _⟩ => rfl
  rw [val_main_v17_apply]
  simp only [attn_eq, el, er]
  rfl

end Cert.CosAttn.Ref

end
-- ==== Proof.lean ====
/-
  Cosine-similarity attention with sum normalisation: the kernel against its jnp reference, on the extended reals.

  For queries q, keys k, values v of shape [32, 2048, 64] and a mask [32, 2048, 2048], both programs compute, for
  batch b, query row r and key row c,
    s(b, r, c) = 0 if mask(b, r, c), else Σ_d (q(b,r,d) / |q(b,r,·)|) · (k(b,c,d) / |k(b,c,·)|) + 1,
    |x| = max(√(Σ_d x_d²), ε),
    attn(b, r, c) = s(b, r, c) / max(Σ_c' s(b, r, c'), ε),       out(b, r, d) = Σ_c attn(b, r, c) · v(b, c, d).
  The kernel does this for 512 query rows at a time against all 2048 keys of the batch (its roundings to bf16 before the
  two matrix products are the identity on the extended reals), the reference on whole arrays. Index by index the
  two are the same expression: the only differences are the order of the two arguments of each maximum, the mask
  read as a 32-bit word against a bit, and a sum started from 0; no law that needs finiteness is used, so the
  precondition is never opened. The idealization rewrote nothing, so `preserves` is trivial.
  The three frames are the generated frame runs (the reference's is its generated run with the results dropped).
-/
import proofs.«158349_j76656576299359_1_alg».proof.Defs
import proofs.«158349_j76656576299359_1_alg».proof.Proof.Gen.Kernel
import proofs.«158349_j76656576299359_1_alg».proof.Proof.Gen.Kernel.Skeleton
import proofs.«158349_j76656576299359_1_alg».proof.Proof.Gen.Kernel.Launch
import proofs.«158349_j76656576299359_1_alg».proof.Proof.Gen.Kernel.Points
import proofs.«158349_j76656576299359_1_alg».proof.Proof.Gen.Kernel.Frame
import proofs.«158349_j76656576299359_1_alg».proof.Proof.Gen.KernelIdeal
import proofs.«158349_j76656576299359_1_alg».proof.Proof.Gen.KernelIdeal.Skeleton
import proofs.«158349_j76656576299359_1_alg».proof.Proof.Gen.KernelIdeal.Launch
import proofs.«158349_j76656576299359_1_alg».proof.Proof.Gen.KernelIdeal.Points
import proofs.«158349_j76656576299359_1_alg».proof.Proof.Gen.KernelIdeal.Frame
import proofs.«158349_j76656576299359_1_alg».proof.Proof.Gen.ReferenceIdeal
import proofs.«158349_j76656576299359_1_alg».proof.Proof.Gen.Pre_finite_inputs
import proofs.«158349_j76656576299359_1_alg».proof.Proof.Gen.KernelIdeal.Value
import proofs.«158349_j76656576299359_1_alg».proof.Proof.Gen.ReferenceIdeal.Run
import proofs.«158349_j76656576299359_1_alg».proof.Proof.Gen.ReferenceIdeal.Read
import proofs.«158349_j76656576299359_1_alg».proof.Proof.Final
import proofs.«158349_j76656576299359_1_alg».proof.Proof.RefSpec
import Idealize.ShloMosaic.Adequacy
import Idealize.ShloMosaic.Init

noncomputable section

namespace Cert.Proof

open Idealize.ShloMosaic Idealize.SL.Sem Cert.CosAttn Cert.CosAttn.Grid

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten by the idealization. -/
theorem preserves : Cert.preserves_Kernel_KernelIdeal := trivial

/-- Both runs end with the output array at `out` and the attention array at `attn` of the (agreeing) arguments: the
    kernel's by its blocks covering the arrays, the reference's stage by stage. -/
theorem algebraic : Cert.algebraic_KernelIdeal_ReferenceIdeal := by
  intro m ρ m' ρ' _ hagree
  refine ⟨fun c => out (Q m c) (K m c) (W m c) (M m c), fun c => attn (Q m c) (K m c) (M m c),
    Cert.CosAttn.Grid.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.CosAttn.Ref.out_eq, (hagree c).1, (hagree c).2.1, (hagree c).2.2.1,
      (hagree c).2.2.2]
  · rw [Cert.ReferenceIdeal.Read.val_main_v16_eq, Cert.CosAttn.Ref.attn_eq, (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
